-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x288 : Shape := ⟨4, ![8, 32, 32, 288]⟩
abbrev S288x64 : Shape := ⟨2, ![288, 64]⟩
abbrev S64 : Shape := ⟨1, ![64]⟩
abbrev S_ : Shape := ⟨0, ![]⟩

class Facts : Prop where
  bcast_S_S8x32x32x288 : S_.BroadcastsInDim S8x32x32x288 (![] : Fin 0 → Fin S8x32x32x288.rank)
  reducesTo_S8x32x32x288_S_d0_1_2_3 : S8x32x32x288.ReducesTo [0, 1, 2, 3] S_
  h_S_ : 0 < S_.numel
  bcast_S_S288x64 : S_.BroadcastsInDim S288x64 (![] : Fin 0 → Fin S288x64.rank)
  reducesTo_S288x64_S_d0_1 : S288x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x288 .f32) (main_arg1 : FVec F S288x64 .f32) (main_arg2 : FVec F S64 .f32) : IVec S_ 1 :=
  let main_v0 : FVec F S8x32x32x288 .f32 := Host.absf main_arg0
  let main_cst : FVec F S_ .f32 := constant S_ .f32 0x7F800000#32
  let main_v1 : FVec F S8x32x32x288 .f32 := broadcastInDim S8x32x32x288 ![] bcast_S_S8x32x32x288 main_cst
  let main_v2 : IVec S8x32x32x288 1 := cmpf .olt main_v0 main_v1
  let main_c : IVec S_ 1 := constantI S_ 1 1#1
  let main_v3 : IVec S_ 1 := (fun x v => Host.reduce IntOp.andi x v reducesTo_S8x32x32x288_S_d0_1_2_3 h_S_) main_v2 main_c
  let main_v4 : FVec F S288x64 .f32 := Host.absf main_arg1
  let main_cst_0 : FVec F S_ .f32 := constant S_ .f32 0x7F800000#32
  let main_v5 : FVec F S288x64 .f32 := broadcastInDim S288x64 ![] bcast_S_S288x64 main_cst_0
  let main_v6 : IVec S288x64 1 := cmpf .olt main_v4 main_v5
  let main_c_1 : IVec S_ 1 := constantI S_ 1 1#1
  let main_v7 : IVec S_ 1 := (fun x v => Host.reduce IntOp.andi x v reducesTo_S288x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x288 : Shape := ⟨4, ![8, 32, 32, 288]⟩
abbrev S288x64 : Shape := ⟨2, ![288, 64]⟩
abbrev S64 : Shape := ⟨1, ![64]⟩
abbrev S8x1024x288 : Shape := ⟨3, ![8, 1024, 288]⟩
abbrev S64x288 : Shape := ⟨2, ![64, 288]⟩
abbrev S8x1024x64 : Shape := ⟨3, ![8, 1024, 64]⟩
abbrev S1x256x288 : Shape := ⟨3, ![1, 256, 288]⟩
abbrev S1x256x64 : Shape := ⟨3, ![1, 256, 64]⟩
abbrev S256x288 : Shape := ⟨2, ![256, 288]⟩
abbrev S256x64 : Shape := ⟨2, ![256, 64]⟩
abbrev S256x128 : Shape := ⟨2, ![256, 128]⟩
abbrev S64x128 : Shape := ⟨2, ![64, 128]⟩
abbrev S256x1x128 : Shape := ⟨3, ![256, 1, 128]⟩
abbrev S1x64x128 : Shape := ⟨3, ![1, 64, 128]⟩
abbrev S256x64x128 : Shape := ⟨3, ![256, 64, 128]⟩
abbrev S256x32 : Shape := ⟨2, ![256, 32]⟩
abbrev S64x32 : Shape := ⟨2, ![64, 32]⟩
abbrev S256x1x32 : Shape := ⟨3, ![256, 1, 32]⟩
abbrev S1x64x32 : Shape := ⟨3, ![1, 64, 32]⟩
abbrev S256x64x32 : Shape := ⟨3, ![256, 64, 32]⟩
abbrev S1x64 : Shape := ⟨2, ![1, 64]⟩

abbrev nBuf : Space → Nat
  | .hbm => 6
  | .vmem => 6
  | .smem => 0
  | _ => 0

abbrev bufTy : (tb : Table) → Fin (tcTables nBuf tb) → BufTy
  | .hbm, ⟨0, _⟩ => ⟨S8x32x32x288, .f32⟩
  | .hbm, ⟨1, _⟩ => ⟨S288x64, .f32⟩
  | .hbm, ⟨2, _⟩ => ⟨S64, .f32⟩
  | .hbm, ⟨3, _⟩ => ⟨S8x1024x288, .f32⟩
  | .hbm, ⟨4, _⟩ => ⟨S64x288, .f32⟩
  | .hbm, ⟨5, _⟩ => ⟨S8x1024x64, .f32⟩
  | .local _ .vmem, ⟨0, _⟩ => ⟨S1x256x288, .f32⟩
  | .local _ .vmem, ⟨1, _⟩ => ⟨S1x256x288, .f32⟩
  | .local _ .vmem, ⟨2, _⟩ => ⟨S64x288, .f32⟩
  | .local _ .vmem, ⟨3, _⟩ => ⟨S64, .f32⟩
  | .local _ .vmem, ⟨4, _⟩ => ⟨S1x256x64, .f32⟩
  | .local _ .vmem, ⟨5, _⟩ => ⟨S1x256x64, .f32⟩
  | _, _ => ⟨S8x32x32x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x32x32x288_S8x1024x288 : S8x32x32x288.ShapeCasts S8x1024x288
  transposes_S288x64_S64x288_1_0 : S288x64.Transposes [1, 0] S64x288
  inb_S1x256x288_S1x256x288_0_0_0 : ∀ a, (![0, 0, 0] : Fin 3 → Nat) a + S1x256x288.size a ≤ S1x256x288.size a
  h_S1x256x288 : 0 < S1x256x288.numel
  shapeCasts_S1x256x288_S256x288 : S1x256x288.ShapeCasts S256x288
  inb_S64x288_S64x288_0_0 : ∀ a, (![0, 0] : Fin 2 → Nat) a + S64x288.size a ≤ S64x288.size a
  h_S64x288 : 0 < S64x288.numel
  shapeCasts_S64x288_S64x288 : S64x288.ShapeCasts S64x288
  slices_S256x288_o0_0_S256x128 : S256x288.Slices ![0, 0] S256x128
  slices_S64x288_o0_0_S64x128 : S64x288.Slices ![0, 0] S64x128
  shapeCasts_S256x128_S256x1x128 : S256x128.ShapeCasts S256x1x128
  shapeCasts_S64x128_S1x64x128 : S64x128.ShapeCasts S1x64x128
  broadcasts_S256x1x128_S256x64x128 : S256x1x128.Broadcasts S256x64x128
  broadcasts_S1x64x128_S256x64x128 : S1x64x128.Broadcasts S256x64x128
  reduces_S256x64x128_S256x64 : S256x64x128.Reduces [2] S256x64
  slices_S256x288_o0_128_S256x128 : S256x288.Slices ![0, 128] S256x128
  slices_S64x288_o0_128_S64x128 : S64x288.Slices ![0, 128] S64x128
  slices_S256x288_o0_256_S256x32 : S256x288.Slices ![0, 256] S256x32
  slices_S64x288_o0_256_S64x32 : S64x288.Slices ![0, 256] S64x32
  shapeCasts_S256x32_S256x1x32 : S256x32.ShapeCasts S256x1x32
  shapeCasts_S64x32_S1x64x32 : S64x32.ShapeCasts S1x64x32
  broadcasts_S256x1x32_S256x64x32 : S256x1x32.Broadcasts S256x64x32
  broadcasts_S1x64x32_S256x64x32 : S1x64x32.Broadcasts S256x64x32
  reduces_S256x64x32_S256x64 : S256x64x32.Reduces [2] S256x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x288.size a ≤ S8x1024x288.size a
  hwx0_0 : ∀ i : grid0.Coords, EltTy.bits .f32 = 32 ∨ (Rect.block (s := S8x1024x288) S1x256x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x288.size a ≤ S64x288.size a
  hwx0_1 : ∀ i : grid0.Coords, EltTy.bits .f32 = 32 ∨ (Rect.block (s := S64x288) S64x288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S8x1024x64.size a
  hwx0_3 : ∀ i : grid0.Coords, EltTy.bits .f32 = 32 ∨ (Rect.block (s := S8x1024x64) S1x256x64.size (cc0_transform_3 i) (hinb0_3 i)).WholeWords (EltTy.packing .f32)

variable [Facts₀]

abbrev win0_0 : Pipeline.Window sig grid0 :=
  Pipeline.Window.ofSpec (Memref.whole main_v0) S1x256x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x32x288 : Shape := ⟨4, ![8, 32, 32, 288]⟩
abbrev S288x64 : Shape := ⟨2, ![288, 64]⟩
abbrev S64 : Shape := ⟨1, ![64]⟩
abbrev S8x1024x288 : Shape := ⟨3, ![8, 1024, 288]⟩
abbrev S8x1024x288x1 : Shape := ⟨4, ![8, 1024, 288, 1]⟩
abbrev S1x1x288x64 : Shape := ⟨4, ![1, 1, 288, 64]⟩
abbrev S8x1024x288x64 : Shape := ⟨4, ![8, 1024, 288, 64]⟩
abbrev S_ : Shape := ⟨0, ![]⟩
abbrev S8x1024x64 : Shape := ⟨3, ![8, 1024, 64]⟩
abbrev S1x1x64 : Shape := ⟨3, ![1, 1, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x32x32x288, .f32⟩
  | .hbm, ⟨1, _⟩ => ⟨S288x64, .f32⟩
  | .hbm, ⟨2, _⟩ => ⟨S64, .f32⟩
  | .hbm, ⟨3, _⟩ => ⟨S8x1024x288, .f32⟩
  | .hbm, ⟨4, _⟩ => ⟨S8x1024x288x1, .f32⟩
  | .hbm, ⟨5, _⟩ => ⟨S1x1x288x64, .f32⟩
  | .hbm, ⟨6, _⟩ => ⟨S8x1024x288x64, .f32⟩
  | .hbm, ⟨7, _⟩ => ⟨S8x1024x288x64, .f32⟩
  | .hbm, ⟨8, _⟩ => ⟨S8x1024x288x64, .f32⟩
  | .hbm, ⟨9, _⟩ => ⟨S8x1024x288x64, .f32⟩
  | .hbm, ⟨10, _⟩ => ⟨S_, .f32⟩
  | .hbm, ⟨11, _⟩ => ⟨S8x1024x64, .f32⟩
  | .hbm, ⟨12, _⟩ => ⟨S1x1x64, .f32⟩
  | .hbm, ⟨13, _⟩ => ⟨S8x1024x64, .f32⟩
  | .hbm, ⟨14, _⟩ => ⟨S8x1024x64, .f32⟩
  | _, _ => ⟨S8x32x32x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S8x32x32x288_S8x1024x288 : S8x32x32x288.ShapeCasts S8x1024x288
  bcast_S8x1024x288_S8x1024x288x1_0_1_2 : S8x1024x288.BroadcastsInDim S8x1024x288x1 (![0, 1, 2] : Fin 3 → Fin S8x1024x288x1.rank)
  bcast_S288x64_S1x1x288x64_2_3 : S288x64.BroadcastsInDim S1x1x288x64 (![2, 3] : Fin 2 → Fin S1x1x288x64.rank)
  bcast_S8x1024x288x1_S8x1024x288x64_0_1_2_3 : S8x1024x288x1.BroadcastsInDim S8x1024x288x64 (![0, 1, 2, 3] : Fin 4 → Fin S8x1024x288x64.rank)
  bcast_S1x1x288x64_S8x1024x288x64_0_1_2_3 : S1x1x288x64.BroadcastsInDim S8x1024x288x64 (![0, 1, 2, 3] : Fin 4 → Fin S8x1024x288x64.rank)
  reducesTo_S8x1024x288x64_S8x1024x64_d2 : S8x1024x288x64.ReducesTo [2] S8x1024x64
  h_S_ : 0 < S_.numel
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)

variable [Facts₀]

class Facts : Prop extends Facts₀ where

variable [Facts]
-- ==== Proof.L1Spec.lean ====
/-
  The layer computed by both programs, as ONE function of its arrays over the extended reals: for a batch of
  8 × 1024 rows of 288 channels and a 288 × 64 weight matrix, entry (p, n, o) of the result is the L1 distance
  between row (p, n) of the activations and column o of the weights, plus the bias at o,

      out[p, n, o] = Σ_{k < 288} |x[p, n, k] − w[k, o]| + b[o].

  The kernel walks the 288 channels in three chunks (128, 128, 32) and adds the three partial sums to a zero
  accumulator; the reference sums all 288 at once from a zero initial value. The two agree because addition on the
  extended reals is commutative and associative with neutral element 0 (`sum_288_split`): no finiteness is needed,
  since neither distributivity nor cancellation is used.
-/
import Idealize.ShloMosaic.PureOps.Ideal
import Idealize.ShloMosaic.Lib.ValueIdx
import Mathlib.Algebra.BigOperators.Fin

noncomputable section

open scoped BigOperators

namespace Cert.L1Dist

open Idealize.ShloMosaic Idealize.ShloMosaic.ValueIdx

/-- `|x − w|` on the extended reals: the larger of the difference and its negation. -/
def dist (x w : EReal) : EReal := max (x - w) (-(x - w))

/-- One entry of the result: the L1 distance between row `(p, n)` of the activations, over its 288 channels, and
    column `o` of the weights, plus the bias at `o`. -/
def cell (xr : (⟨3, ![8, 1024, 288]⟩ : Shape).Idx → EReal) (w : (⟨2, ![288, 64]⟩ : Shape).Idx → EReal)
    (b : (⟨1, ![64]⟩ : Shape).Idx → EReal) (p : Fin 8) (n : Fin 1024) (o : Fin 64) : EReal :=
  (∑ k : Fin 288, dist (xr (ix3 p n k)) (w (ix2 k o))) + b (ix1 o)

/-- The whole result array, entry by entry. -/
def G (xr : (⟨3, ![8, 1024, 288]⟩ : Shape).Idx → EReal) (w : (⟨2, ![288, 64]⟩ : Shape).Idx → EReal)
    (b : (⟨1, ![64]⟩ : Shape).Idx → EReal) : (⟨3, ![8, 1024, 64]⟩ : Shape).Idx → EReal :=
  fun i => cell xr w b (i 0) (i 1) (i 2)

/-- A sum over 288 channels is the sum over channels 0–127, plus the sum over 128–255, plus the sum over 256–287:
    in any commutative monoid, by associativity alone. -/
theorem sum_288_split {M : Type*} [AddCommMonoid M] (f : Fin 288 → M) :
    ∑ k : Fin 288, f k
      = (∑ k : Fin 128, f ⟨k.val, by omega⟩ + ∑ k : Fin 128, f ⟨128 + k.val, by omega⟩)
        + ∑ k : Fin 32, f ⟨256 + k.val, by omega⟩ := by
  have h1 : ∑ k : Fin 288, f k
      = ∑ k : Fin 256, f ⟨k.val, by omega⟩ + ∑ k : Fin 32, f ⟨256 + k.val, by omega⟩ :=
    Fin.sum_univ_add (a := 256) (b := 32) f
  have h2 : ∑ k : Fin 256, f ⟨k.val, by omega⟩
      = ∑ k : Fin 128, f ⟨k.val, by omega⟩ + ∑ k : Fin 128, f ⟨128 + k.val, by omega⟩ :=
    Fin.sum_univ_add (a := 128) (b := 128) (fun k : Fin (128 + 128) => f ⟨k.val, by omega⟩)
  rw [h1, h2]

end Cert.L1Dist

end
-- ==== Proof.RefIsL1.lean ====
/-
  The reference's result is the L1 layer `Cert.L1Dist.G` of the reshaped activations, the weights and the bias.

  Read entry by entry, the reference broadcasts row (p, n) of the reshaped activations along a new last axis and
  the weights along two new leading axes, subtracts, takes absolute values, sums over the channel axis from a zero
  initial value and adds the bias broadcast over the rows: at (p, n, o) this is 0 + Σ_k |x[p, n, k] − w[k, o]| + b[o].
-/
import proofs.«100609_j48490180771967_2_alg».proof.Proof.Gen.ReferenceIdeal.Read
import proofs.«100609_j48490180771967_2_alg».proof.Proof.L1Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.L1Dist

/-- The activations' entry the channel-`k` term of the sum at `i` reads: row `(i 0, i 1)`, channel `k`. -/
theorem act_idx (i : S8x1024x64.Idx) (k : Fin 288) :
    idx_main_v1 (idx_main_v3 (idx_main_v7 i k)) = ix3 (i 0) (i 1) k :=
  funext fun a => Fin.ext (by match a with | ⟨0, _⟩ => rfl | ⟨1, _⟩ => rfl | ⟨2, _⟩ => rfl)

/-- The weights' entry it reads: row `k`, column `i 2`. -/
theorem wgt_idx (i : S8x1024x64.Idx) (k : Fin 288) :
    idx_main_v2 (idx_main_v4 (idx_main_v7 i k)) = ix2 k (i 2) :=
  funext fun a => Fin.ext (by match a with | ⟨0, _⟩ => rfl | ⟨1, _⟩ => rfl)

/-- The bias entry added at `i`: the one at column `i 2`. -/
theorem bias_idx (i : S8x1024x64.Idx) : idx_main_v8 (idx_main_v9 i) = ix1 (i 2) :=
  funext fun a => Fin.ext (by match a with | ⟨0, _⟩ => rfl)

/-- The reference's last stage, at `Ideal`, is the L1 layer of the reshaped activations. -/
theorem result_eq (x0 : (⟨S8x32x32x288, .f32⟩ : BufTy).Contents (Elt Ideal)) (x1 : (⟨S288x64, .f32⟩ : BufTy).Contents (Elt Ideal))
    (x2 : (⟨S64, .f32⟩ : BufTy).Contents (Elt Ideal)) :
    val_main_v10 (F := Ideal) x0 x1 x2 = G (val_main_v0 (F := Ideal) x0) x1 x2 := by
  funext i
  rw [val_main_v10_apply, val_main_v7_apply, val_main_v9_apply, val_main_v8_apply, val_main_cst_apply, bias_idx]
  simp only [val_main_v6_apply, val_main_v5_apply, val_main_v3_apply, val_main_v1_apply, val_main_v4_apply,
    val_main_v2_apply, act_idx, wgt_idx, Ideal.hostAbsf_def, Ideal.addf_def, Ideal.ofBits_def, Ideal.ofBits_zero_f32,
    zero_add]
  rfl

end Cert.ReferenceIdeal.RefValue

end
-- ==== Proof.KernelChunks.lean ====
/-
  One block of the kernel's output, entry by entry, over the extended reals.

  At a grid point the body holds a 256-row block of the reshaped activations (`P0`, 1 × 256 × 288), the whole
  transposed weight matrix (`P1`, 64 × 288: row o is column o of the weights) and the bias (`P2`, 64 entries). It cuts
  the 288 channels into the chunks [0, 128), [128, 256), [256, 288); for each chunk it lays row r of the activations
  against row o of the transposed weights, takes |x − w| channel by channel and sums along the chunk; the three partial
  sums are added, in order, to a zero accumulator, and the bias is added last. So entry (r, o) of the block is
  Σ_{k < 288} |P0[0, r, k] − P1[o, k]| + P2[o]: the three chunk sums are the one sum over all 288 channels, split
  (`Cert.L1Dist.sum_288_split`).
-/
import proofs.«100609_j48490180771967_2_alg».proof.Proof.Gen.KernelIdeal.Value
import proofs.«100609_j48490180771967_2_alg».proof.Proof.L1Spec
import Idealize.ShloMosaic.PureOps.Ideal.Laws
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.ValueIdx
open Cert.L1Dist

/-! ## The two operands of a chunk's subtraction, read at an index -/

/-- Row `p` of the activations' 128-channel chunk starting at channel `off`, repeated along the 64 columns:
    at `(p, q, k)` it is the block's entry at row `p`, channel `off + k`. -/
theorem act128 (off : Nat) (hoff : off + 128 ≤ 288) (P0 : Vec Ideal S1x256x288 .f32)
    (hs : S256x288.Slices ![0, off] S256x128) (p : Fin 256) (q : Fin 64) (k : Fin 128) :
    broadcastTo S256x64x128 (shapeCast S256x1x128 (extractStridedSlice S256x128 ![0, off]
        (shapeCast S256x288 P0 shapeCasts_S1x256x288_S256x288) hs) shapeCasts_S256x128_S256x1x128)
        broadcasts_S256x1x128_S256x64x128 (ix3 p q k)
      = P0 (ix3 0 p ⟨off + k.val, by omega⟩) := by
  refine (broadcastTo_apply _ broadcasts_S256x1x128_S256x64x128 (ix3 p q k) (ix3 p 0 k) (fun a => match a with
    | ⟨0, _⟩ => by show p.val = if (256 : Nat) = 1 then 0 else p.val; rw [if_neg (by decide)]
    | ⟨1, _⟩ => by show 0 = if (1 : Nat) = 1 then 0 else q.val; rw [if_pos rfl]
    | ⟨2, _⟩ => by show k.val = if (128 : Nat) = 1 then 0 else k.val; rw [if_neg (by decide)])).trans ?_
  refine (shapeCast_apply _ shapeCasts_S256x128_S256x1x128 (ix3 p 0 k) (ix2 p k) (by
    rw [Shape.rowMajor_val_two, Shape.rowMajor_val_three]
    show p.val * 128 + k.val = (p.val * 1 + 0) * 128 + k.val; omega)).trans ?_
  refine (extractStridedSlice_apply ![0, off] _ hs (ix2 p k) (ix2 p ⟨off + k.val, by omega⟩) (fun a => match a with
    | ⟨0, _⟩ => by show p.val = 0 + p.val; omega
    | ⟨1, _⟩ => by show off + k.val = off + k.val; rfl)).trans ?_
  exact shapeCast_apply P0 shapeCasts_S1x256x288_S256x288 (ix2 p ⟨off + k.val, by omega⟩) (ix3 0 p ⟨off + k.val, by omega⟩) (by
    rw [Shape.rowMajor_val_three, Shape.rowMajor_val_two]
    show (0 * 256 + p.val) * 288 + (off + k.val) = p.val * 288 + (off + k.val); omega)

/-- Row `q` of the transposed weights' 128-channel chunk starting at channel `off`, repeated along the 256 rows:
    at `(p, q, k)` it is the transposed weights' entry at row `q`, channel `off + k`. -/
theorem wgt128 (off : Nat) (hoff : off + 128 ≤ 288) (P1 : Vec Ideal S64x288 .f32)
    (hs : S64x288.Slices ![0, off] S64x128) (p : Fin 256) (q : Fin 64) (k : Fin 128) :
    broadcastTo S256x64x128 (shapeCast S1x64x128 (extractStridedSlice S64x128 ![0, off]
        (shapeCast S64x288 P1 shapeCasts_S64x288_S64x288) hs) shapeCasts_S64x128_S1x64x128)
        broadcasts_S1x64x128_S256x64x128 (ix3 p q k)
      = P1 (ix2 q ⟨off + k.val, by omega⟩) := by
  refine (broadcastTo_apply _ broadcasts_S1x64x128_S256x64x128 (ix3 p q k) (ix3 0 q k) (fun a => match a with
    | ⟨0, _⟩ => by show 0 = if (1 : Nat) = 1 then 0 else p.val; rw [if_pos rfl]
    | ⟨1, _⟩ => by show q.val = if (64 : Nat) = 1 then 0 else q.val; rw [if_neg (by decide)]
    | ⟨2, _⟩ => by show k.val = if (128 : Nat) = 1 then 0 else k.val; rw [if_neg (by decide)])).trans ?_
  refine (shapeCast_apply _ shapeCasts_S64x128_S1x64x128 (ix3 0 q k) (ix2 q k) (by
    rw [Shape.rowMajor_val_two, Shape.rowMajor_val_three]
    show q.val * 128 + k.val = (0 * 64 + q.val) * 128 + k.val; omega)).trans ?_
  refine (extractStridedSlice_apply ![0, off] _ hs (ix2 q k) (ix2 q ⟨off + k.val, by omega⟩) (fun a => match a with
    | ⟨0, _⟩ => by show q.val = 0 + q.val; omega
    | ⟨1, _⟩ => by show off + k.val = off + k.val; rfl)).trans ?_
  exact congrFun (shapeCast_self P1 shapeCasts_S64x288_S64x288) _

/-- The same two readings for the last chunk, 32 channels wide. -/
theorem act32 (off : Nat) (hoff : off + 32 ≤ 288) (P0 : Vec Ideal S1x256x288 .f32)
    (hs : S256x288.Slices ![0, off] S256x32) (p : Fin 256) (q : Fin 64) (k : Fin 32) :
    broadcastTo S256x64x32 (shapeCast S256x1x32 (extractStridedSlice S256x32 ![0, off]
        (shapeCast S256x288 P0 shapeCasts_S1x256x288_S256x288) hs) shapeCasts_S256x32_S256x1x32)
        broadcasts_S256x1x32_S256x64x32 (ix3 p q k)
      = P0 (ix3 0 p ⟨off + k.val, by omega⟩) := by
  refine (broadcastTo_apply _ broadcasts_S256x1x32_S256x64x32 (ix3 p q k) (ix3 p 0 k) (fun a => match a with
    | ⟨0, _⟩ => by show p.val = if (256 : Nat) = 1 then 0 else p.val; rw [if_neg (by decide)]
    | ⟨1, _⟩ => by show 0 = if (1 : Nat) = 1 then 0 else q.val; rw [if_pos rfl]
    | ⟨2, _⟩ => by show k.val = if (32 : Nat) = 1 then 0 else k.val; rw [if_neg (by decide)])).trans ?_
  refine (shapeCast_apply _ shapeCasts_S256x32_S256x1x32 (ix3 p 0 k) (ix2 p k) (by
    rw [Shape.rowMajor_val_two, Shape.rowMajor_val_three]
    show p.val * 32 + k.val = (p.val * 1 + 0) * 32 + k.val; omega)).trans ?_
  refine (extractStridedSlice_apply ![0, off] _ hs (ix2 p k) (ix2 p ⟨off + k.val, by omega⟩) (fun a => match a with
    | ⟨0, _⟩ => by show p.val = 0 + p.val; omega
    | ⟨1, _⟩ => by show off + k.val = off + k.val; rfl)).trans ?_
  exact shapeCast_apply P0 shapeCasts_S1x256x288_S256x288 (ix2 p ⟨off + k.val, by omega⟩) (ix3 0 p ⟨off + k.val, by omega⟩) (by
    rw [Shape.rowMajor_val_three, Shape.rowMajor_val_two]
    show (0 * 256 + p.val) * 288 + (off + k.val) = p.val * 288 + (off + k.val); omega)

theorem wgt32 (off : Nat) (hoff : off + 32 ≤ 288) (P1 : Vec Ideal S64x288 .f32)
    (hs : S64x288.Slices ![0, off] S64x32) (p : Fin 256) (q : Fin 64) (k : Fin 32) :
    broadcastTo S256x64x32 (shapeCast S1x64x32 (extractStridedSlice S64x32 ![0, off]
        (shapeCast S64x288 P1 shapeCasts_S64x288_S64x288) hs) shapeCasts_S64x32_S1x64x32)
        broadcasts_S1x64x32_S256x64x32 (ix3 p q k)
      = P1 (ix2 q ⟨off + k.val, by omega⟩) := by
  refine (broadcastTo_apply _ broadcasts_S1x64x32_S256x64x32 (ix3 p q k) (ix3 0 q k) (fun a => match a with
    | ⟨0, _⟩ => by show 0 = if (1 : Nat) = 1 then 0 else p.val; rw [if_pos rfl]
    | ⟨1, _⟩ => by show q.val = if (64 : Nat) = 1 then 0 else q.val; rw [if_neg (by decide)]
    | ⟨2, _⟩ => by show k.val = if (32 : Nat) = 1 then 0 else k.val; rw [if_neg (by decide)])).trans ?_
  refine (shapeCast_apply _ shapeCasts_S64x32_S1x64x32 (ix3 0 q k) (ix2 q k) (by
    rw [Shape.rowMajor_val_two, Shape.rowMajor_val_three]
    show q.val * 32 + k.val = (0 * 64 + q.val) * 32 + k.val; omega)).trans ?_
  refine (extractStridedSlice_apply ![0, off] _ hs (ix2 q k) (ix2 q ⟨off + k.val, by omega⟩) (fun a => match a with
    | ⟨0, _⟩ => by show q.val = 0 + q.val; omega
    | ⟨1, _⟩ => by show off + k.val = off + k.val; rfl)).trans ?_
  exact congrFun (shapeCast_self P1 shapeCasts_S64x288_S64x288) _

/-! ## A chunk's partial sum -/

/-- The sum along a 128-channel chunk starting at channel `off`, at row `p` and column `q`: the chunk's share of the
    L1 distance between row `p` of the block and row `q` of the transposed weights. -/
theorem chunk128 (off : Nat) (hoff : off + 128 ≤ 288) (P0 : Vec Ideal S1x256x288 .f32) (P1 : Vec Ideal S64x288 .f32)
    (hs0 : S256x288.Slices ![0, off] S256x128) (hs1 : S64x288.Slices ![0, off] S64x128) (p : Fin 256) (q : Fin 64) :
    multiReduction (F := Ideal) .add [2] S256x64 (absf (subf
        (broadcastTo S256x64x128 (shapeCast S256x1x128 (extractStridedSlice S256x128 ![0, off]
          (shapeCast S256x288 P0 shapeCasts_S1x256x288_S256x288) hs0) shapeCasts_S256x128_S256x1x128)
          broadcasts_S256x1x128_S256x64x128)
        (broadcastTo S256x64x128 (shapeCast S1x64x128 (extractStridedSlice S64x128 ![0, off]
          (shapeCast S64x288 P1 shapeCasts_S64x288_S64x288) hs1) shapeCasts_S64x128_S1x64x128)
          broadcasts_S1x64x128_S256x64x128)))
        0x00000000#32 reduces_S256x64x128_S256x64 (.inl rfl) rfl (ix2 p q)
      = ∑ k : Fin 128, dist (P0 (ix3 0 p ⟨off + k.val, by omega⟩)) (P1 (ix2 q ⟨off + k.val, by omega⟩)) := by
  refine (Ideal.multiReduction_add_single _ _ reduces_S256x64x128_S256x64 _ _ (ix2 p q)).trans ?_
  refine Finset.sum_congr rfl fun k _ => ?_
  have hl : reduces_S256x64x128_S256x64.lift (ix2 p q) k = ix3 p q k :=
    funext fun a => Fin.ext (by match a with | ⟨0, _⟩ => rfl | ⟨1, _⟩ => rfl | ⟨2, _⟩ => rfl)
  rw [hl]
  exact congrArg₂ dist (act128 off hoff P0 hs0 p q k) (wgt128 off hoff P1 hs1 p q k)

/-- The same for the last chunk, 32 channels wide. -/
theorem chunk32 (off : Nat) (hoff : off + 32 ≤ 288) (P0 : Vec Ideal S1x256x288 .f32) (P1 : Vec Ideal S64x288 .f32)
    (hs0 : S256x288.Slices ![0, off] S256x32) (hs1 : S64x288.Slices ![0, off] S64x32) (p : Fin 256) (q : Fin 64) :
    multiReduction (F := Ideal) .add [2] S256x64 (absf (subf
        (broadcastTo S256x64x32 (shapeCast S256x1x32 (extractStridedSlice S256x32 ![0, off]
          (shapeCast S256x288 P0 shapeCasts_S1x256x288_S256x288) hs0) shapeCasts_S256x32_S256x1x32)
          broadcasts_S256x1x32_S256x64x32)
        (broadcastTo S256x64x32 (shapeCast S1x64x32 (extractStridedSlice S64x32 ![0, off]
          (shapeCast S64x288 P1 shapeCasts_S64x288_S64x288) hs1) shapeCasts_S64x32_S1x64x32)
          broadcasts_S1x64x32_S256x64x32)))
        0x00000000#32 reduces_S256x64x32_S256x64 (.inl rfl) rfl (ix2 p q)
      = ∑ k : Fin 32, dist (P0 (ix3 0 p ⟨off + k.val, by omega⟩)) (P1 (ix2 q ⟨off + k.val, by omega⟩)) := by
  refine (Ideal.multiReduction_add_single _ _ reduces_S256x64x32_S256x64 _ _ (ix2 p q)).trans ?_
  refine Finset.sum_congr rfl fun k _ => ?_
  have hl : reduces_S256x64x32_S256x64.lift (ix2 p q) k = ix3 p q k :=
    funext fun a => Fin.ext (by match a with | ⟨0, _⟩ => rfl | ⟨1, _⟩ => rfl | ⟨2, _⟩ => rfl)
  rw [hl]
  exact congrArg₂ dist (act32 off hoff P0 hs0 p q k) (wgt32 off hoff P1 hs1 p q k)

end Cert.KernelIdeal.BlockValue

end
-- ==== Proof.KernelBlock.lean ====
/-
  What the body leaves in the output's staging buffer, entry by entry: for any contents `x0` of the activations' block
  (1 × 256 × 288), `x1` of the transposed weights (64 × 288) and `x2` of the bias (64), the entry at row `r` and
  column `o` of the 1 × 256 × 64 block is

      Σ_{k < 288} |x0[0, r, k] − x1[o, k]| + x2[o].

  The three chunk sums (channels [0, 128), [128, 256), [256, 288)) added in order to the zero accumulator are the one
  sum over all 288 channels: 0 is neutral and the split is `Cert.L1Dist.sum_288_split`.
-/
import proofs.«100609_j48490180771967_2_alg».proof.Proof.KernelChunks

noncomputable section

open scoped BigOperators

namespace Cert.KernelIdeal.BlockValue

open Cert.KernelIdeal Cert.KernelIdeal.Gen Idealize.ShloMosaic Idealize.ShloMosaic.ValueIdx
open Cert.L1Dist

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block as one function of the three loaded arrays, at row `p` and column `q`: the zero accumulator plus the
    three chunk sums plus the bias is the full L1 distance plus the bias. -/
theorem block_entry (P0 : Vec Ideal S1x256x288 .f32) (P1 : Vec Ideal S64x288 .f32) (P2 : Vec Ideal S64 .f32)
    (a : Fin 1) (p : Fin 256) (q : Fin 64) :
    Value.E3 (F := Ideal) P0 P1 P2 (ix3 a p q)
      = (∑ k : Fin 288, dist (P0 (ix3 0 p k)) (P1 (ix2 q k))) + P2 (ix1 q) := by
  have h0 : Value.ix3_0 (ix3 a p q) = ix2 p q :=
    funext fun d => Fin.ext (by match d with | ⟨0, _⟩ => rfl | ⟨1, _⟩ => rfl)
  have h1 : Value.ix3_1 (ix3 a p q) = ix2 p q :=
    funext fun d => Fin.ext (by match d with | ⟨0, _⟩ => rfl | ⟨1, _⟩ => rfl)
  have h2 : Value.ix3_2 (ix3 a p q) = ix2 p q :=
    funext fun d => Fin.ext (by match d with | ⟨0, _⟩ => rfl | ⟨1, _⟩ => rfl)
  have h3 : Value.ix3_3 (ix3 a p q) = ix1 q :=
    funext fun d => Fin.ext (by match d with | ⟨0, _⟩ => rfl)
  have c1 := chunk128 0 (by omega) P0 P1 slices_S256x288_o0_0_S256x128 slices_S64x288_o0_0_S64x128 p q
  have c2 := chunk128 128 (by omega) P0 P1 slices_S256x288_o0_128_S256x128 slices_S64x288_o0_128_S64x128 p q
  have c3 := chunk32 256 (by omega) P0 P1 slices_S256x288_o0_256_S256x32 slices_S64x288_o0_256_S64x32 p q
  rw [sum_288_split (fun k => dist (P0 (ix3 0 p k)) (P1 (ix2 q k)))]
  show (((Ideal.ofBits .f32 0x00000000#32 + _) + _) + _) + _ = _
  rw [h0, h1, h2, h3, Ideal.ofBits_zero_f32, zero_add]
  refine congrArg₂ (· + ·) (congrArg₂ (· + ·) (congrArg₂ (· + ·) (c1.trans ?_) c2) c3) rfl
  exact Finset.sum_congr rfl fun k _ => by simp only [Nat.zero_add]

/-- What the body leaves in the output's staging buffer (the one whole-block store, its payload over the three whole-block
    loads), at an index `y` of the block. -/
theorem out_entry (x0 : Vec Ideal S1x256x288 .f32) (x1 : Vec Ideal S64x288 .f32) (x2 : Vec Ideal S64 .f32)
    (y : S1x256x64.Idx) :
    out0_3 x0 x1 x2 y = (∑ k : Fin 288, dist (x0 (ix3 0 (y 1) k)) (x1 (ix2 (y 2) k))) + x2 (ix1 (y 2)) := by
  obtain ⟨a, p, q, rfl⟩ : ∃ (a : Fin 1) (p : Fin 256) (q : Fin 64), y = ix3 a p q := ⟨y 0, y 1, y 2, eq_ix3 y⟩
  unfold out0_3
  simp only [View.ld_unit_zero (S := S1x256x288) zeros3, View.ld_unit_zero (S := S64x288) zeros2,
    View.ld_unit_zero (S := S64) zeros1]
  rw [Value.canon3_eq]
  exact block_entry x0 x1 x2 a p q

end Cert.KernelIdeal.BlockValue

end
-- ==== Proof.KernelArray.lean ====
/-
  From blocks to the whole result array of the kernel, over the extended reals.

  The grid has 8 × 4 points; point (g, h) reads rows 256·h … 256·h + 255 of batch g of the reshaped activations, the whole
  transposed weight matrix and the whole bias, and writes rows 256·h … 256·h + 255 of batch g of the result. The block it
  writes is the restriction of ONE function of the arrays (`outArr`: the L1 distance of row (g, n) to row o of the
  transposed weights, plus the bias at o), the 32 blocks cover the 8 × 1024 × 64 result, so after the run the result
  array is that function. The two host operations before the call make the activations' array the 8 × 32 × 32 × 288
  argument reshaped to 8 × 1024 × 288 and the weights' array the 288 × 64 argument transposed, so the function is
  `Cert.L1Dist.G` of the arguments.
-/
import proofs.«100609_j48490180771967_2_alg».proof.Proof.KernelBlock
import Idealize.ShloMosaic.Lib.StableHlo.Run
import Idealize.ShloMosaic.Lib.ValueLayout

noncomputable section

open scoped BigOperators

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.BlockValue
open Idealize.ShloMosaic.ValueIdx Cert.L1Dist

variable (m : (ℓ : Loc nD τ sig) → Buf (Elt Ideal) ℓ) (ρ : Dev nD → PrngReg)

/-! ## The index maps over the grid -/

/-- Decided over the 32 grid points: the activations' block moves with the result's block along the batch and row axes
    and spans all channels; the transposed weights and the bias are always their one whole block; the result's block
    spans all 64 columns, and its batch and row-block indices stay in range. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 1) = 0
    ∧ win0_3.index t (2 : Fin 3) = 0
    ∧ win0_3.index t (0 : Fin 3) ≤ 7
    ∧ win0_3.index t (1 : Fin 3) ≤ 3 :=
  (by decide +kernel : ∀ t : Fin grid0.N, _)

/-- Every (batch, row-block) pair is some grid point's. -/
theorem idx_onto : ∀ (g : Fin 8) (h : Fin 4), ∃ t : Fin cfg0.N, win0_3.index t = ![g.val, h.val, 0] :=
  (by decide +kernel : ∀ (g : Fin 8) (h : Fin 4), ∃ t : Fin grid0.N, win0_3.index t = ![g.val, h.val, 0])

/-! ## Each input block read off its array -/

/-- Row `r`, channel `k` of the activations' block at point `t` is the reshaped activations at the point's batch,
    row `256 · (row-block) + r`, channel `k`. -/
theorem act_blk (c : Dev nD) (t : Fin cfg0.N) (r : Fin 256) (k : Fin 288) (i : S8x1024x288.Idx)
    (h0 : (i 0).val = win0_3.index t (0 : Fin 3)) (h1 : (i 1).val = win0_3.index t (1 : Fin 3) * 256 + r.val)
    (h2 : (i 2).val = k.val) :
    (iblk m c 0 t : Vec Ideal S1x256x288 .f32) (ix3 0 r k) = (V m c main_v0 : S8x1024x288.Idx → EReal) i := by
  obtain ⟨e0, e1, e2, -⟩ := idx_facts t
  unfold iblk
  rw [View.read_apply]
  show (V m c main_v0 : S8x1024x288.Idx → EReal) _ = _
  refine congrArg (V m c main_v0 : S8x1024x288.Idx → EReal) ?_
  funext a
  apply Fin.ext
  match a with
  | ⟨0, _⟩ => show win0_0.index t (0 : Fin 3) * 1 + 1 * 0 = (i 0).val; omega
  | ⟨1, _⟩ => show win0_0.index t (1 : Fin 3) * 256 + 1 * r.val = (i 1).val; omega
  | ⟨2, _⟩ => show win0_0.index t (2 : Fin 3) * 288 + 1 * k.val = (i 2).val; omega

/-- The transposed weights' block at any point is the whole transposed array. -/
theorem wgt_blk (c : Dev nD) (t : Fin cfg0.N) (o : Fin 64) (k : Fin 288) (i : S64x288.Idx)
    (h0 : (i 0).val = o.val) (h1 : (i 1).val = k.val) :
    (iblk m c 1 t : Vec Ideal S64x288 .f32) (ix2 o k) = (V m c main_v1 : S64x288.Idx → EReal) i := by
  obtain ⟨-, -, -, e3, e4, -⟩ := idx_facts t
  unfold iblk
  rw [View.read_apply]
  show (V m c main_v1 : S64x288.Idx → EReal) _ = _
  refine congrArg (V m c main_v1 : S64x288.Idx → EReal) ?_
  funext a
  apply Fin.ext
  match a with
  | ⟨0, _⟩ => show win0_1.index t (0 : Fin 2) * 64 + 1 * o.val = (i 0).val; omega
  | ⟨1, _⟩ => show win0_1.index t (1 : Fin 2) * 288 + 1 * k.val = (i 1).val; omega

/-- The bias block at any point is the whole bias. -/
theorem bias_blk (c : Dev nD) (t : Fin cfg0.N) (o : Fin 64) (i : S64.Idx) (h0 : (i 0).val = o.val) :
    (iblk m c 2 t : Vec Ideal S64 .f32) (ix1 o) = (V m c main_arg2 : S64.Idx → EReal) i := by
  obtain ⟨-, -, -, -, -, e5, -⟩ := idx_facts t
  unfold iblk
  rw [View.read_apply]
  show (V m c main_arg2 : S64.Idx → EReal) _ = _
  refine congrArg (V m c main_arg2 : S64.Idx → EReal) ?_
  funext a
  apply Fin.ext
  match a with
  | ⟨0, _⟩ => show win0_2.index t (0 : Fin 1) * 64 + 1 * o.val = (i 0).val; omega

/-! ## The result array as one function of the arrays the call finds -/

/-- Entry `(g, n, o)`: the L1 distance between row `(g, n)` of the activations' array and row `o` of the transposed
    weights' array, plus the bias at `o`. -/
def outArr (c : Dev nD) : S8x1024x64.Idx → EReal := fun i =>
  (∑ k : Fin 288, dist ((V m c main_v0 : S8x1024x288.Idx → EReal) (ix3 (i 0) (i 1) k))
      ((V m c main_v1 : S64x288.Idx → EReal) (ix2 (i 2) k)))
    + (V m c main_arg2 : S64.Idx → EReal) (ix1 (i 2))

/-- What point `t` writes back is block `t` of `outArr`. -/
theorem flushed_eq (c : Dev nD) (t : Fin cfg0.N) :
    (dats m 0 c).flushed 3 t = ((cfg0.win 3).blk t).view.read (Elt Ideal) (outArr m c) := by
  obtain ⟨-, -, -, -, -, -, e6, -⟩ := idx_facts t
  rw [flushed3]
  funext y
  have hy0 : (y 0).val < 1 := (y 0).isLt
  rw [View.read_apply]
  show out0_3 (iblk m c 0 t) (iblk m c 1 t) (iblk m c 2 t) ((cfg0.win 3).xinj (grid0.coords t) y) = _
  refine (out_entry (iblk m c 0 t) (iblk m c 1 t) (iblk m c 2 t) _).trans ?_
  unfold outArr
  refine congrArg₂ (· + ·) (Finset.sum_congr rfl fun k _ => congrArg₂ dist ?_ ?_) ?_
  · refine act_blk m c t _ k _ ?_ ?_ rfl
    · show win0_3.index t (0 : Fin 3) * 1 + 1 * (y 0).val = win0_3.index t (0 : Fin 3); omega
    · show win0_3.index t (1 : Fin 3) * 256 + 1 * (y 1).val = win0_3.index t (1 : Fin 3) * 256 + (y 1).val; omega
  · refine wgt_blk m c t _ k _ ?_ rfl
    show win0_3.index t (2 : Fin 3) * 64 + 1 * (y 2).val = (y 2).val; omega
  · refine bias_blk m c t _ _ ?_
    show win0_3.index t (2 : Fin 3) * 64 + 1 * (y 2).val = (y 2).val; omega

/-- An index of the result is in point `t`'s block iff each coordinate is in the block's range on its axis. -/
theorem mem_blk (t : Fin cfg0.N) (i : S8x1024x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v2).slice (win0_3.rect t)).set ↔ _
  rw [View.set_slice_whole, Rect.mem_set_unit]
  exact Iff.rfl

/-- Every entry of the result is written by some point: entry `(g, n, o)` by the point of batch `g` and row-block
    `n / 256`. -/
theorem cover (i : S8x1024x64.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 256 ≤ (i 1).val ∧ (i 1).val < win0_3.index t (1 : Fin 3) * 256 + 256; omega
  | ⟨2, _⟩ =>
    show win0_3.index t (2 : Fin 3) * 64 ≤ (i 2).val ∧ (i 2).val < win0_3.index t (2 : Fin 3) * 64 + 64; omega

/-- So the result array after the run is `outArr`. -/
theorem final (c : Dev nD) : (dats m 0 c).arrAt 3 cfg0.N = outArr m c :=
  (dats m 0 c).arrAt_eq_of_cover 3 (outArr m c) (fun t _ => flushed_eq m c t) cover

/-! ## The arrays the call finds, from the arguments -/

/-- The activations' array is the 8 × 32 × 32 × 288 argument reshaped to 8 × 1024 × 288. -/
theorem V_act (c : Dev nD) : (V m c main_v0 : S8x1024x288.Idx → EReal)
    = shapeCast S8x1024x288 (m ((c : Thread nD τ).loc main_arg0)) shapeCasts_S8x32x32x288_S8x1024x288 := by
  dsimp only [Gen.V, Gen.hostOps0]; after_results <;> rfl

/-- The weights' array is the 288 × 64 argument transposed. -/
theorem V_wgt (c : Dev nD) : (V m c main_v1 : S64x288.Idx → EReal)
    = transpose S64x288 [1, 0] (m ((c : Thread nD τ).loc main_arg1)) transposes_S288x64_S64x288_1_0 := by
  dsimp only [Gen.V, Gen.hostOps0]; after_results <;> rfl

/-- The result function, in the arguments: the L1 layer of the reshaped activations, the weights and the bias. -/
theorem outArr_eq (c : Dev nD) : outArr m c
    = G (shapeCast S8x1024x288 (m ((c : Thread nD τ).loc main_arg0)) shapeCasts_S8x32x32x288_S8x1024x288)
        (m ((c : Thread nD τ).loc main_arg1)) (m ((c : Thread nD τ).loc main_arg2)) := by
  funext i
  unfold outArr
  rw [V_act, V_wgt, V_main_arg2]
  show _ = (∑ k : Fin 288, dist _ _) + _
  refine congrArg₂ (· + ·) (Finset.sum_congr rfl fun k _ => congrArg₂ dist rfl ?_) rfl
  exact transpose_ix2_apply _ _ (i 2) k

/-! ## The run, read -/

/-- Every weakly fair execution of the kernel's program terminates with the result array at the L1 layer of the
    arguments, the arguments unchanged. -/
theorem run : θ_run defs (onTc (τ := τ) (main (F := Ideal))) ⟨m, fun _ => 0, ρ⟩ fun r => ∀ c : Dev nD,
      r.2.mem ((c : Thread nD τ).loc main_v2)
        = G (shapeCast S8x1024x288 (m ((c : Thread nD τ).loc main_arg0)) shapeCasts_S8x32x32x288_S8x1024x288)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (outArr_eq m c)), (h c).2⟩)
    (run_blocks m ρ)

end Cert.KernelIdeal.ArrayValue

end
-- ==== Proof.lean ====
/-
  The certificate of an L1-distance layer: a Pallas kernel against its jnp reference, equal over the extended reals.

  Both programs take activations x : f32[8, 32, 32, 288], weights w : f32[288, 64] and a bias b : f32[64], view the
  activations as 8 × 1024 rows of 288 channels, and return out : f32[8, 1024, 64] with

      out[g, n, o] = Σ_{k < 288} |x[g, n, k] − w[k, o]| + b[o].

  The reference broadcasts both operands to 8 × 1024 × 288 × 64, subtracts, takes absolute values, sums the channel
  axis from a zero initial value and adds the bias. The kernel transposes the weights on the host, runs a grid of 8 × 4
  points, each on a block of 256 rows, and in the body walks the 288 channels in chunks of 128, 128 and 32, adding each
  chunk's lane sum of |x − w| to a zero accumulator before adding the bias. Over the extended reals (every float
  operation exact, a format change the identity) the two results are the same function of the arguments: the kernel's
  three chunk sums added to zero are the one sum over all channels, because addition there is commutative and associative
  with neutral element zero. Neither distributivity nor cancellation is used, so the precondition (finite inputs) is
  never opened.

  The three frames are the generated frame runs (the reference's is its generated run with the result dropped); the
  idealization rewrote nothing, so `preserves` is `True`; `algebraic` puts the kernel's run, read as the layer
  `Cert.L1Dist.G` of the arguments (Proof/KernelArray.lean), beside the reference's run, whose last stage is the same
  function (Proof/RefIsL1.lean).
-/
import proofs.«100609_j48490180771967_2_alg».proof.Defs
import proofs.«100609_j48490180771967_2_alg».proof.Proof.Gen.Kernel
import proofs.«100609_j48490180771967_2_alg».proof.Proof.Gen.Kernel.Skeleton
import proofs.«100609_j48490180771967_2_alg».proof.Proof.Gen.Kernel.Launch
import proofs.«100609_j48490180771967_2_alg».proof.Proof.Gen.Kernel.Points
import proofs.«100609_j48490180771967_2_alg».proof.Proof.Gen.Kernel.Frame
import proofs.«100609_j48490180771967_2_alg».proof.Proof.Gen.KernelIdeal
import proofs.«100609_j48490180771967_2_alg».proof.Proof.Gen.KernelIdeal.Skeleton
import proofs.«100609_j48490180771967_2_alg».proof.Proof.Gen.KernelIdeal.Launch
import proofs.«100609_j48490180771967_2_alg».proof.Proof.Gen.KernelIdeal.Points
import proofs.«100609_j48490180771967_2_alg».proof.Proof.Gen.KernelIdeal.Frame
import proofs.«100609_j48490180771967_2_alg».proof.Proof.Gen.ReferenceIdeal
import proofs.«100609_j48490180771967_2_alg».proof.Proof.Gen.KernelIdeal.Value
import proofs.«100609_j48490180771967_2_alg».proof.Proof.Gen.ReferenceIdeal.Run
import proofs.«100609_j48490180771967_2_alg».proof.Proof.Gen.ReferenceIdeal.Read
import proofs.«100609_j48490180771967_2_alg».proof.Proof.Gen.Pre_finite_inputs
import proofs.«100609_j48490180771967_2_alg».proof.Proof.RefIsL1
import proofs.«100609_j48490180771967_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the L1 layer of the arguments (reshaped
    activations, weights, bias) and the reference's last stage is that same function of the same arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
